-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x16x512 : Shape := ⟨3, ![4096, 16, 512]⟩
abbrev S1x1x512x512 : Shape := ⟨4, ![1, 1, 512, 512]⟩
abbrev S_ : Shape := ⟨0, ![]⟩

class Facts : Prop where
  bcast_S_S4096x16x512 : S_.BroadcastsInDim S4096x16x512 (![] : Fin 0 → Fin S4096x16x512.rank)
  reducesTo_S4096x16x512_S_d0_1_2 : S4096x16x512.ReducesTo [0, 1, 2] S_
  h_S_ : 0 < S_.numel
  bcast_S_S1x1x512x512 : S_.BroadcastsInDim S1x1x512x512 (![] : Fin 0 → Fin S1x1x512x512.rank)
  reducesTo_S1x1x512x512_S_d0_1_2_3 : S1x1x512x512.ReducesTo [0, 1, 2, 3] S_

variable [Facts]

def fn {F : FTy → Type} [FloatOps F] (main_arg0 : FVec F S4096x16x512 .f32) (main_arg1 : FVec F S1x1x512x512 .f32) (main_arg2 : FVec F S1x1x512x512 .f32) : IVec S_ 1 :=
  let main_v0 : FVec F S4096x16x512 .f32 := Host.absf main_arg0
  let main_cst : FVec F S_ .f32 := constant S_ .f32 0x7F800000#32
  let main_v1 : FVec F S4096x16x512 .f32 := broadcastInDim S4096x16x512 ![] bcast_S_S4096x16x512 main_cst
  let main_v2 : IVec S4096x16x512 1 := cmpf .olt main_v0 main_v1
  let main_c : IVec S_ 1 := constantI S_ 1 1#1
  let main_v3 : IVec S_ 1 := (fun x v => Host.reduce IntOp.andi x v reducesTo_S4096x16x512_S_d0_1_2 h_S_) main_v2 main_c
  let main_v4 : FVec F S1x1x512x512 .f32 := Host.absf main_arg1
  let main_cst_0 : FVec F S_ .f32 := constant S_ .f32 0x7F800000#32
  let main_v5 : FVec F S1x1x512x512 .f32 := broadcastInDim S1x1x512x512 ![] bcast_S_S1x1x512x512 main_cst_0
  let main_v6 : IVec S1x1x512x512 1 := cmpf .olt main_v4 main_v5
  let main_c_1 : IVec S_ 1 := constantI S_ 1 1#1
  let main_v7 : IVec S_ 1 := (fun x v => Host.reduce IntOp.andi x v reducesTo_S1x1x512x512_S_d0_1_2_3 h_S_) main_v6 main_c_1
  let main_v8 : IVec S_ 1 := andi main_v3 main_v7
  let main_v9 : FVec F S1x1x512x512 .f32 := Host.absf main_arg2
  let main_cst_2 : FVec F S_ .f32 := constant S_ .f32 0x7F800000#32
  let main_v10 : FVec F S1x1x512x512 .f32 := broadcastInDim S1x1x512x512 ![] bcast_S_S1x1x512x512 main_cst_2
  let main_v11 : IVec S1x1x512x512 1 := cmpf .olt main_v9 main_v10
  let main_c_3 : IVec S_ 1 := constantI S_ 1 1#1
  let main_v12 : IVec S_ 1 := (fun x v => Host.reduce IntOp.andi x v reducesTo_S1x1x512x512_S_d0_1_2_3 h_S_) main_v11 main_c_3
  let main_v13 : IVec S_ 1 := andi main_v8 main_v12
  main_v13
-- ==== Kernel.lean ====
abbrev S4096x16x512 : Shape := ⟨3, ![4096, 16, 512]⟩
abbrev S1x1x512x512 : Shape := ⟨4, ![1, 1, 512, 512]⟩
abbrev S_ : Shape := ⟨0, ![]⟩
abbrev S1x1x512 : Shape := ⟨3, ![1, 1, 512]⟩
abbrev S1x512 : Shape := ⟨2, ![1, 512]⟩
abbrev S65536x512 : Shape := ⟨2, ![65536, 512]⟩
abbrev S4096x512 : Shape := ⟨2, ![4096, 512]⟩

abbrev nBuf : Space → Nat
  | .hbm => 13
  | .vmem => 5
  | .smem => 0
  | _ => 0

abbrev bufTy : (tb : Table) → Fin (tcTables nBuf tb) → BufTy
  | .hbm, ⟨0, _⟩ => ⟨S4096x16x512, .f32⟩
  | .hbm, ⟨1, _⟩ => ⟨S1x1x512x512, .f32⟩
  | .hbm, ⟨2, _⟩ => ⟨S1x1x512x512, .f32⟩
  | .hbm, ⟨3, _⟩ => ⟨S_, .f32⟩
  | .hbm, ⟨4, _⟩ => ⟨S1x1x512, .f32⟩
  | .hbm, ⟨5, _⟩ => ⟨S1x512, .f32⟩
  | .hbm, ⟨6, _⟩ => ⟨S_, .f32⟩
  | .hbm, ⟨7, _⟩ => ⟨S1x1x512, .f32⟩
  | .hbm, ⟨8, _⟩ => ⟨S1x512, .f32⟩
  | .hbm, ⟨9, _⟩ => ⟨S1x512, .f32⟩
  | .hbm, ⟨10, _⟩ => ⟨S65536x512, .f32⟩
  | .hbm, ⟨11, _⟩ => ⟨S65536x512, .f32⟩
  | .hbm, ⟨12, _⟩ => ⟨S4096x16x512, .f32⟩
  | .local _ .vmem, ⟨0, _⟩ => ⟨S4096x512, .f32⟩
  | .local _ .vmem, ⟨1, _⟩ => ⟨S4096x512, .f32⟩
  | .local _ .vmem, ⟨2, _⟩ => ⟨S1x512, .f32⟩
  | .local _ .vmem, ⟨3, _⟩ => ⟨S4096x512, .f32⟩
  | .local _ .vmem, ⟨4, _⟩ => ⟨S4096x512, .f32⟩
  | _, _ => ⟨S4096x16x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  reducesTo_S1x1x512x512_S1x1x512_d3 : S1x1x512x512.ReducesTo [3] S1x1x512
  h_S_ : 0 < S_.numel
  shapeCasts_S1x1x512_S1x512 : S1x1x512.ShapeCasts S1x512
  shapeCasts_S4096x16x512_S65536x512 : S4096x16x512.ShapeCasts S65536x512
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S4096x512 : S1x512.Broadcasts S4096x512
  shapeCasts_S65536x512_S4096x16x512 : S65536x512.ShapeCasts S4096x16x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S65536x512.size a
  hwx0_0 : ∀ i : grid0.Coords, EltTy.bits .f32 = 32 ∨ (Rect.block (s := S65536x512) S4096x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x512.size a
  hwx0_1 : ∀ i : grid0.Coords, EltTy.bits .f32 = 32 ∨ (Rect.block (s := S1x512) S1x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x512.size a ≤ S65536x512.size a
  hwx0_2 : ∀ i : grid0.Coords, EltTy.bits .f32 = 32 ∨ (Rect.block (s := S65536x512) S4096x512.size (cc0_transform_2 i) (hinb0_2 i)).WholeWords (EltTy.packing .f32)

variable [Facts₀]

abbrev win0_0 : Pipeline.Window sig grid0 :=
  Pipeline.Window.ofSpec (Memref.whole main_v5) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S4096x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x16x512 : Shape := ⟨3, ![4096, 16, 512]⟩
abbrev S1x1x512x512 : Shape := ⟨4, ![1, 1, 512, 512]⟩
abbrev S_ : Shape := ⟨0, ![]⟩
abbrev S1x1x512 : Shape := ⟨3, ![1, 1, 512]⟩

abbrev nBuf : Space → Nat
  | .hbm => 21
  | .vmem => 0
  | .smem => 0
  | _ => 0

abbrev bufTy : (tb : Table) → Fin (tcTables nBuf tb) → BufTy
  | .hbm, ⟨0, _⟩ => ⟨S4096x16x512, .f32⟩
  | .hbm, ⟨1, _⟩ => ⟨S1x1x512x512, .f32⟩
  | .hbm, ⟨2, _⟩ => ⟨S1x1x512x512, .f32⟩
  | .hbm, ⟨3, _⟩ => ⟨S_, .f32⟩
  | .hbm, ⟨4, _⟩ => ⟨S1x1x512, .f32⟩
  | .hbm, ⟨5, _⟩ => ⟨S_, .f32⟩
  | .hbm, ⟨6, _⟩ => ⟨S1x1x512, .f32⟩
  | .hbm, ⟨7, _⟩ => ⟨S4096x16x512, .f32⟩
  | .hbm, ⟨8, _⟩ => ⟨S4096x16x512, .f32⟩
  | .hbm, ⟨9, _⟩ => ⟨S4096x16x512, .f32⟩
  | .hbm, ⟨10, _⟩ => ⟨S4096x16x512, .f32⟩
  | .hbm, ⟨11, _⟩ => ⟨S4096x16x512, .f32⟩
  | .hbm, ⟨12, _⟩ => ⟨S4096x16x512, .f32⟩
  | .hbm, ⟨13, _⟩ => ⟨S4096x16x512, .f32⟩
  | .hbm, ⟨14, _⟩ => ⟨S_, .f32⟩
  | .hbm, ⟨15, _⟩ => ⟨S4096x16x512, .f32⟩
  | .hbm, ⟨16, _⟩ => ⟨S4096x16x512, .f32⟩
  | .hbm, ⟨17, _⟩ => ⟨S_, .f32⟩
  | .hbm, ⟨18, _⟩ => ⟨S4096x16x512, .f32⟩
  | .hbm, ⟨19, _⟩ => ⟨S4096x16x512, .f32⟩
  | .hbm, ⟨20, _⟩ => ⟨S4096x16x512, .f32⟩
  | _, _ => ⟨S4096x16x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]

class Facts₀ : Prop where
  reducesTo_S1x1x512x512_S1x1x512_d3 : S1x1x512x512.ReducesTo [3] S1x1x512
  h_S_ : 0 < S_.numel
  bcast_S1x1x512_S4096x16x512_0_1_2 : S1x1x512.BroadcastsInDim S4096x16x512 (![0, 1, 2] : Fin 3 → Fin S4096x16x512.rank)
  bcast_S_S4096x16x512 : S_.BroadcastsInDim S4096x16x512 (![] : Fin 0 → Fin S4096x16x512.rank)

variable [Facts₀]

class Facts : Prop extends Facts₀ where

variable [Facts]
-- ==== Proof.LogisticTanh.lean ====
/-
  The logistic function through a hyperbolic tangent, on the extended reals.

  For a real `t`,  1 / (1 + e^(-t)) = (1/2) · tanh (t/2) + 1/2 :  with `e = exp (t/2)` the right side is
  (1/2) · (e - 1/e) / (e + 1/e) + 1/2 = e / (e + 1/e) = 1 / (1 + 1/e²), and `1/e² = exp (-t)`.
  The two sides also agree at the two infinities: at `+∞` the left side is `1 / (1 + 0) = 1` and the right
  side `(1/2) · 1 + 1/2`; at `-∞` the left side is `1 / (+∞) = 0` and the right side `(1/2) · (-1) + 1/2`.
  So the identity holds for EVERY extended real, and no finiteness is needed to use it.

  The float word `0x3F000000` denotes one half and `0x3F800000` denotes one.
-/
import Idealize.ShloMosaic.PureOps.Ideal

noncomputable section

namespace Cert.LogisticTanh

open Idealize.ShloMosaic

/-- The single-precision word `0x3F000000` is one half. -/
theorem half_word : Ideal.ofBits .f32 0x3F000000#32 = ((1 / 2 : ℝ) : EReal) := by
  simp [Ideal.ofBits, Ideal.ieee, -EReal.coe_mul]
  norm_num

/-- The single-precision word `0x3F800000` is one. -/
theorem one_word : Ideal.ofBits .f32 0x3F800000#32 = (1 : EReal) := by
  simp [Ideal.ofBits, Ideal.ieee, -EReal.coe_mul]
  norm_num

/-- Over the reals: `1 / (1 + e^(-r)) = (1/2) · tanh (r/2) + 1/2`. -/
theorem real_logistic_eq (r : ℝ) : (1 + Real.exp (-r))⁻¹ = 1 / 2 * Real.tanh (1 / 2 * r) + 1 / 2 := by
  have he : 0 < Real.exp (1 / 2 * r) := Real.exp_pos _
  have h1 : Real.exp (-(1 / 2 * r)) = (Real.exp (1 / 2 * r))⁻¹ := Real.exp_neg _
  have h2 : Real.exp (-r) = (Real.exp (1 / 2 * r))⁻¹ * (Real.exp (1 / 2 * r))⁻¹ := by
    rw [← h1, ← Real.exp_add]
    congr 1
    ring
  rw [Real.tanh_eq_sinh_div_cosh, Real.sinh_eq, Real.cosh_eq, h1, h2]
  generalize Real.exp (1 / 2 * r) = e at he
  have hne : e ≠ 0 := he.ne'
  field_simp
  ring

/-- On the extended reals, infinities included: `logistic t = (1/2) · tanh ((1/2) · t) + 1/2`. -/
theorem logistic_eq_half_tanh (t : EReal) :
    Ideal.logistic t = ((1 / 2 : ℝ) : EReal) * Ideal.tanh (((1 / 2 : ℝ) : EReal) * t) + ((1 / 2 : ℝ) : EReal) := by
  have hpos : (0 : EReal) < ((1 / 2 : ℝ) : EReal) := by exact_mod_cast (by norm_num : (0 : ℝ) < 1 / 2)
  induction t using EReal.rec with
  | bot =>
    rw [Ideal.logistic_bot, EReal.mul_bot_of_pos hpos, Ideal.tanh_bot, ← EReal.coe_one, ← EReal.coe_neg,
      ← EReal.coe_mul, ← EReal.coe_add, ← EReal.coe_zero]
    congr 1
    norm_num
  | coe r =>
    rw [Ideal.logistic_coe, ← EReal.coe_mul, Ideal.tanh_coe, ← EReal.coe_mul, ← EReal.coe_add, real_logistic_eq]
  | top =>
    rw [Ideal.logistic_top, EReal.mul_top_of_pos hpos, Ideal.tanh_top, mul_one, ← EReal.coe_add, ← EReal.coe_one]
    congr 1
    norm_num

end Cert.LogisticTanh

end
-- ==== Proof.Gate.lean ====
/-
  The channel gate, as one function of the arrays.

  For an input array `x : [4096, 16, 512]` and two per-channel weights `rq, rk : [1, 1, 512]` (the row sums
  of the two weight matrices) the result at `(s, n, c)` is

      x(s,n,c) · ( ½ · tanh( ½ · ( x(s,n,c)² · (rq(c) · rk(c)) ) ) + ½ ).

  A program that instead multiplies `(x · rq) · (x · rk)` and applies `1 / (1 + e^(-t))` computes the same
  entry: the four factors may be regrouped because multiplication of extended reals is commutative and
  associative, and the logistic function is the half-tangent expression at every extended real
  (`LogisticTanh.logistic_eq_half_tanh`). Neither step needs the entries to be finite.
-/
import Idealize.ShloMosaic.PureOps.Ideal
import Idealize.ShloMosaic.Lib.ValueIdx
import proofs.«151927_j67199058313541_2_alg».proof.Proof.LogisticTanh

noncomputable section

namespace Cert.Gate

open Idealize.ShloMosaic Idealize.ShloMosaic.ValueIdx

/-- One half, as the single-precision word both programs spell it with. -/
abbrev half : EReal := Ideal.ofBits .f32 0x3F000000#32

/-- One entry `x` gated by the combined channel weight `w`: `x · (½ · tanh (½ · (x² · w)) + ½)`. -/
def gateW (x w : EReal) : EReal := x * (half * Ideal.tanh (half * ((x * x) * w)) + half)

/-- The channel `(0, 0, c)` of the per-channel weights that entry `(s, n, c)` reads. -/
def chan (i : (⟨3, ![4096, 16, 512]⟩ : Shape).Idx) : (⟨3, ![1, 1, 512]⟩ : Shape).Idx :=
  ix3 (0 : Fin 1) (0 : Fin 1) (⟨(i 2).val, (i 2).isLt⟩ : Fin 512)

/-- The whole result: entry `i` of `x` gated by the product of the two channel weights of `i`'s channel. -/
def gated (x : (⟨3, ![4096, 16, 512]⟩ : Shape).Idx → EReal) (rq rk : (⟨3, ![1, 1, 512]⟩ : Shape).Idx → EReal) :
    (⟨3, ![4096, 16, 512]⟩ : Shape).Idx → EReal :=
  fun i => gateW (x i) (rq (chan i) * rk (chan i))

/-- The logistic form of one entry, `x · 1 / (1 + e^(-((x·q)·(x·k))))`, is the gate with weight `q · k`. -/
theorem logistic_form (x q k : EReal) :
    x * Ideal.div 1 (1 + Ideal.exp (-((x * q) * (x * k)))) = gateW x (q * k) := by
  show x * Ideal.logistic ((x * q) * (x * k)) = _
  unfold gateW half
  rw [LogisticTanh.half_word, LogisticTanh.logistic_eq_half_tanh, mul_mul_mul_comm]

end Cert.Gate

end
-- ==== Proof.KernelBlocks.lean ====
/-
  What the kernel's region leaves in its output array.

  The region runs over 16 grid points; point `t` reads rows `4096·t … 4096·t + 4095` of the flattened input
  `[65536, 512]` and the whole one-row weight `[1, 512]`, and writes the same rows of the output. Entry `(p, c)`
  of what it writes is the gate of the input's entry by the weight of column `c`. The 16 row blocks tile the
  output, so after the run the output array is that function of the input array and the weight row, entry by
  entry.
-/
import proofs.«151927_j67199058313541_2_alg».proof.Proof.Gen.KernelIdeal.Frame
import proofs.«151927_j67199058313541_2_alg».proof.Proof.Gate
import Idealize.ShloMosaic.Lib.ValueIdx
import Idealize.ShloMosaic.Lib.ValueLayout
import Idealize.ShloMosaic.Lib.Pipeline.Value

set_option maxRecDepth 16384

noncomputable section

namespace Cert.KernelIdeal.GateValue

open Cert.KernelIdeal Cert.KernelIdeal.Gen Idealize.ShloMosaic Idealize.ShloMosaic.TcCoe Idealize.ShloMosaic.ValueIdx
open Idealize.SL.Sem Idealize.ShloMosaic.Pipeline Cert.Gate

/-! ## One entry of the body's stored value -/

/-- The body's stored value at `(p, q)`: the loaded block's entry gated by the weight row's entry `q`. -/
theorem pay_apply (x0 : Vec Ideal S4096x512 .f32) (x1 : Vec Ideal S1x512 .f32) (p : Fin 4096) (q : Fin 512) :
    k0_pay1 (F := Ideal) x0 x1 (ix2 p q) = gateW (x0 (ix2 p q)) (x1 (ix2 (0 : Fin 1) q)) := by
  unfold k0_pay1
  simp only [shapeCast_self]
  show x0 (ix2 p q) * (half * Ideal.tanh (half * ((x0 (ix2 p q) * x0 (ix2 p q))
    * broadcastTo S4096x512 x1 broadcasts_S1x512_S4096x512 (ix2 p q))) + half) = _
  rw [broadcastTo_1b_ab_apply]
  rfl

/-- The flattened result: row `r`, column `c` of `X` gated by the weight row's entry `c`. -/
def rowsGated (X : S65536x512.Idx → EReal) (w : S1x512.Idx → EReal) : S65536x512.Idx → EReal :=
  fun i => gateW (X i) (w (ix2 (0 : Fin 1) (⟨(i 1).val, (i 1).isLt⟩ : Fin 512)))

/-- A block of the body's stored value is the same block of `rowsGated`: if the loaded block `x0` is `X` read
    through a placement `e` of block indices that keeps the column, and the loaded row `x1` is `w`. -/
theorem block_entry (x0 : Vec Ideal S4096x512 .f32) (x1 : Vec Ideal S1x512 .f32)
    (X : S65536x512.Idx → EReal) (w : S1x512.Idx → EReal) (e : S4096x512.Idx → S65536x512.Idx)
    (h0 : ∀ y, x0 y = X (e y)) (h1 : x1 = w) (he : ∀ y, ((e y) 1).val = (y 1).val) (y : S4096x512.Idx) :
    k0_pay1 (F := Ideal) x0 x1 y = rowsGated X w (e y) := by
  obtain ⟨p, q, rfl⟩ : ∃ (p : Fin 4096) (q : Fin 512), y = ix2 p q := ⟨y 0, y 1, eq_ix2 y⟩
  have hq : (⟨((e (ix2 p q)) 1).val, ((e (ix2 p q)) 1).isLt⟩ : Fin 512) = q := Fin.ext (he _)
  rw [pay_apply, h0, h1]
  unfold rowsGated
  rw [hq]

/-! ## From the blocks to the array -/

variable (m : (ℓ : Loc nD τ sig) → Buf (Elt Ideal) ℓ)

theorem offsets_zero : (![0, 0] : Fin 2 → Nat) = fun _ => 0 := funext fun a => by fin_cases a <;> rfl

/-- The block indices, decided over the 16 points: the input's block moves with the output's, the weight row stays,
    and the output's block at point `t` is row block `t`. -/
theorem block_indices : ∀ t : Fin cfg0.N, win0_0.index t (0 : Fin 2) = win0_2.index t (0 : Fin 2)
    ∧ win0_0.index t (1 : Fin 2) = win0_2.index t (1 : Fin 2)
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point `t` writes back is block `t` of `rowsGated` of the flattened input and the weight row as the
    region finds them. -/
theorem flushed_eq (c : Dev nD) (t : Fin cfg0.N) :
    (dats m 0 c).flushed 2 t
      = ((cfg0.win 2).blk t).view.read (Elt Ideal) (rowsGated (V m c main_v5) (V m c main_v4)) := by
  show (cfg0.win 2).cut (grid0.coords t) ((dats m 0 c).after 2 t) = _
  rw [after0_2]
  unfold out0_2
  rw [View.canon_unit_zero offsets_zero]
  simp only [View.ld_unit_zero (S := S4096x512) offsets_zero, View.ld_unit_zero (S := S1x512) offsets_zero]
  obtain ⟨e0, e1, e2, e3, e4, e5⟩ := block_indices t
  funext j
  show k0_pay1 (F := Ideal) (iblk m c 0 t) (iblk m c 1 t) j
    = rowsGated (V m c main_v5) (V m c main_v4) (((cfg0.win 2).blk t).view.emb j)
  refine block_entry (iblk m c 0 t) (iblk m c 1 t) (V m c main_v5) (V m c main_v4) (((cfg0.win 2).blk t).view.emb) ?_ ?_ ?_ j
  · intro y
    show V m c main_v5 (((cfg0.win 0).blk t).view.emb y) = V m c main_v5 (((cfg0.win 2).blk t).view.emb y)
    refine congrArg (V m c main_v5) (funext fun a => Fin.ext ?_)
    match a with
    | ⟨0, _⟩ =>
      show win0_0.index t (0 : Fin 2) * 4096 + 1 * (y 0).val = win0_2.index t (0 : Fin 2) * 4096 + 1 * (y 0).val
      omega
    | ⟨1, _⟩ =>
      show win0_0.index t (1 : Fin 2) * 512 + 1 * (y 1).val = win0_2.index t (1 : Fin 2) * 512 + 1 * (y 1).val
      omega
  · funext y
    show V m c main_v4 (((cfg0.win 1).blk t).view.emb y) = V m c main_v4 y
    refine congrArg (V m c main_v4) (funext fun a => Fin.ext ?_)
    match a with
    | ⟨0, _⟩ =>
      show win0_1.index t (0 : Fin 2) * 1 + 1 * (y 0).val = (y 0).val
      omega
    | ⟨1, _⟩ =>
      show win0_1.index t (1 : Fin 2) * 512 + 1 * (y 1).val = (y 1).val
      omega
  · intro y
    show win0_2.index t (1 : Fin 2) * 512 + 1 * (y 1).val = (y 1).val
    omega

/-- An index of the output array is in point `t`'s block iff each coordinate is in the block's range. -/
theorem mem_block (t : Fin cfg0.N) (i : S65536x512.Idx) :
    i ∈ ((cfg0.win 2).blk t).view.set ↔ ∀ a : Fin 2, win0_2.index t a * S4096x512.size a ≤ (i a).val
      ∧ (i a).val < win0_2.index t a * S4096x512.size a + S4096x512.size a := by
  show i ∈ ((View.whole main_v6).slice (win0_2.rect t)).set ↔ _
  rw [View.set_slice_whole, Rect.mem_set_unit]
  exact Iff.rfl

/-- Row `r` of the output lies in the block of point `r / 4096`: the 16 blocks cover the array. -/
theorem blocks_cover (i : S65536x512.Idx) :
    ∃ t : Fin cfg0.N, (cfg0.win 2).flush t = true ∧ i ∈ ((cfg0.win 2).blk t).view.set := by
  have hi0 : (i 0).val < 65536 := (i 0).isLt
  have hi1 : (i 1).val < 512 := (i 1).isLt
  have hN : cfg0.N = 16 := N_0
  obtain ⟨t, ht⟩ : ∃ t : Fin cfg0.N, t.val = (i 0).val / 4096 := ⟨⟨(i 0).val / 4096, by omega⟩, rfl⟩
  obtain ⟨-, -, -, -, e4, e5⟩ := block_indices t
  refine ⟨t, flush0_2 t, ?_⟩
  rw [mem_block]
  intro a
  match a with
  | ⟨0, _⟩ =>
    show win0_2.index t (0 : Fin 2) * 4096 ≤ (i 0).val ∧ (i 0).val < win0_2.index t (0 : Fin 2) * 4096 + 4096
    omega
  | ⟨1, _⟩ =>
    show win0_2.index t (1 : Fin 2) * 512 ≤ (i 1).val ∧ (i 1).val < win0_2.index t (1 : Fin 2) * 512 + 512
    omega

/-- The output array after the run: `rowsGated` of the flattened input and the weight row. -/
theorem array_eq (c : Dev nD) :
    (dats m 0 c).arrAt 2 cfg0.N = rowsGated (V m c main_v5) (V m c main_v4) :=
  (dats m 0 c).arrAt_eq_of_cover 2 _ (fun t _ => flushed_eq m c t) blocks_cover

end Cert.KernelIdeal.GateValue

end
-- ==== Proof.LibOuterSumLayout.lean ====
/-
  The layout operations of an outer (broadcast) sum of two matrices, read at coordinates.

  To form `x[i, k] + y[j, k]` for all `(i, j, k)` a program views `x : [a, c]` as `[a, 1, c]` and `y : [b, c]`
  as `[1, b, c]`, broadcasts both to `[a, b, c]`, and later flattens the two leading axes: `[a, b, c]` as
  `[a·b, c]` (row `i·b + j`) and back. A bias `[c]` viewed as `[1, 1, c]` and broadcast to `[a, b, c]` reads
  its entry `k` everywhere. Each lemma states one of these operations at an index given by coordinates.
-/
import Idealize.ShloMosaic.Lib.Pipeline.Value
import Idealize.ShloMosaic.Lib.ValueIdx

noncomputable section

namespace Cert.LibOuterSumLayout

open Idealize.ShloMosaic Idealize.ShloMosaic.ValueIdx

variable {α : Type}

/-- An `[a, c]` matrix viewed as `[a, 1, c]` reads, at `(i, z, k)`, its entry `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (z : Fin 1) (k : Fin c) :
    shapeCast ⟨3, ![a, 1, c]⟩ x h (ix3 i z k) = x (ix2 i k) :=
  shapeCast_apply x h _ _ (by
    have hz : z.val = 0 := by omega
    rw [Shape.rowMajor_val_three, Shape.rowMajor_val_two]
    show i.val * c + k.val = (i.val * 1 + z.val) * c + k.val
    rw [hz, Nat.mul_one, Nat.add_zero])

/-- An `[a, 1, c]` array broadcast to `[a, b, c]` reads, at `(i, j, k)`, its entry `(i, 0, k)`. -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) := by
  refine broadcastTo_apply x h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(i, j, k)`, its entry `(0, j, k)`. -/
theorem broadcastTo_1bc_abc_apply {a b c : ℕ} (x : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ x h (ix3 i j k) = x (ix3 (0 : Fin 1) j k) := by
  refine broadcastTo_apply x h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- A `[1, 1, c]` array broadcast to `[a, b, c]` reads, at `(i, j, k)`, its entry `(0, 0, k)`. -/
theorem broadcastTo_11c_abc_apply {a b c : ℕ} (x : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ x h (ix3 i j k) = x (ix3 (0 : Fin 1) (0 : Fin 1) k) := by
  refine broadcastTo_apply x h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- A `[c]` vector viewed as `[1, 1, c]` reads, at `(z, z', k)`, its entry `k`. -/
theorem shapeCast_c_11c_apply {c : ℕ} (x : (⟨1, ![c]⟩ : Shape).Idx → α)
    (h : (⟨1, ![c]⟩ : Shape).ShapeCasts ⟨3, ![1, 1, c]⟩) (z z' : Fin 1) (k : Fin c) :
    shapeCast ⟨3, ![1, 1, c]⟩ x h (ix3 z z' k) = x (ix1 k) :=
  shapeCast_apply x h _ _ (by
    have hz : z.val = 0 := by omega
    have hz' : z'.val = 0 := by omega
    rw [Shape.rowMajor_val_three, Shape.rowMajor_val_one]
    show k.val = (z.val * 1 + z'.val) * c + k.val
    simp only [hz, hz', Nat.zero_mul, Nat.zero_add, Nat.mul_one, Nat.add_zero])

/-- An `[a, b, c]` array with its two leading axes flattened to `n = a·b` rows reads, at row `p = i·b + j`
    and column `k`, its entry `(i, j, k)`. -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (k : Fin c) (p : Fin n)
    (hp : p.val = i.val * b + j.val) :
    shapeCast ⟨2, ![n, c]⟩ x h (ix2 p k) = x (ix3 i j k) :=
  shapeCast_apply x h _ _ (by
    rw [Shape.rowMajor_val_three, Shape.rowMajor_val_two]
    show (i.val * b + j.val) * c + k.val = p.val * c + k.val
    rw [hp])

/-- An `[n, c]` matrix with `n = a·b` rows viewed as `[a, b, c]` reads, at `(i, j, k)`, its entry at row
    `p = i·b + j` and column `k`. -/
theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (k : Fin c) (p : Fin n)
    (hp : p.val = i.val * b + j.val) :
    shapeCast ⟨3, ![a, b, c]⟩ x h (ix3 i j k) = x (ix2 p k) :=
  shapeCast_apply x h _ _ (by
    rw [Shape.rowMajor_val_three, Shape.rowMajor_val_two]
    show p.val * c + k.val = (i.val * b + j.val) * c + k.val
    rw [hp])

end Cert.LibOuterSumLayout

end
-- ==== Proof.KernelValue.lean ====
/-
  The kernel program's result is the channel gate.

  Before the region the program sums each weight matrix along its last axis, views the two `[1, 1, 512]` row sums
  as `[1, 512]` rows and multiplies them into one weight row, and flattens the input `[4096, 16, 512]` to
  `[65536, 512]` (row `16·s + n`). After the region it views the output `[65536, 512]` as `[4096, 16, 512]`
  again. Entry `(s, n, c)` of the result is therefore row `16·s + n`, column `c` of the region's output: the
  input's entry `(s, n, c)` gated by the product of the two row sums of channel `c`.
-/
import proofs.«151927_j67199058313541_2_alg».proof.Proof.KernelBlocks
import proofs.«151927_j67199058313541_2_alg».proof.Proof.LibOuterSumLayout
import Idealize.ShloMosaic.Lib.StableHlo.Run

set_option maxRecDepth 16384

noncomputable section

namespace Cert.KernelIdeal.GateValue

open Cert.KernelIdeal Cert.KernelIdeal.Gen Idealize.ShloMosaic Idealize.ShloMosaic.TcCoe Idealize.ShloMosaic.ValueIdx
open Idealize.SL.Sem Idealize.ShloMosaic.StableHlo Cert.Gate Cert.LibOuterSumLayout

variable (m : (ℓ : Loc nD τ sig) → Buf (Elt Ideal) ℓ) (ρ : Dev nD → PrngReg)

/-- The sum of a weight matrix `[1, 1, 512, 512]` along its last axis, from zero: one value per channel. -/
abbrev rowSum (W : (⟨S1x1x512x512, .f32⟩ : BufTy).Contents (Elt Ideal)) : (⟨S1x1x512, .f32⟩ : BufTy).Contents (Elt Ideal) :=
  Host.reduceAdd W (constant (F := Ideal) S_ .f32 0x00000000#32) reducesTo_S1x1x512x512_S1x1x512_d3 h_S_

/-- The region finds the input flattened to `[65536, 512]`. -/
theorem flat_input (c : Dev nD) :
    (V m c main_v5 : S65536x512.Idx → EReal)
      = shapeCast S65536x512 (m ((c.tc : Thread nD τ).loc main_arg0)) shapeCasts_S4096x16x512_S65536x512 := by
  show StableHlo.after hostOps0 (fun b => m (c, b)) (Proc.devRef .tc main_v5) = _
  after_results
  rfl

/-- The region finds the weight row: the product of the two row sums, each viewed as a `[1, 512]` row. -/
theorem weight_row (c : Dev nD) :
    (V m c main_v4 : S1x512.Idx → EReal)
      = mulf (F := Ideal) (s := S1x512) (φ := .f32)
          (shapeCast S1x512 (rowSum (m ((c.tc : Thread nD τ).loc main_arg1))) shapeCasts_S1x1x512_S1x512)
          (shapeCast S1x512 (rowSum (m ((c.tc : Thread nD τ).loc main_arg2))) shapeCasts_S1x1x512_S1x512) := by
  show StableHlo.after hostOps0 (fun b => m (c, b)) (Proc.devRef .tc main_v4) = _
  after_results
  rfl

/-- After the region, the result buffer is the region's output array viewed as `[4096, 16, 512]`. -/
theorem tail_eq (c : Dev nD) :
    Pipeline.afterTail₀ cfgs (dats m) 0 (V0 m) [hostOps1] c main_v7
      = shapeCast S4096x16x512 (rowsGated (V m c main_v5) (V m c main_v4)) shapeCasts_S65536x512_S4096x16x512 := by
  have hA : Pipeline.withArrays (cfgs 0).spec c (V0 m c) (fun w => (dats m 0 c).arrAt w (cfgs 0).N) (Proc.devRef .tc main_v6)
      = rowsGated (V m c main_v5) (V m c main_v4) :=
    (Pipeline.withArrays_arr spec0 launch0.win.arr_inj c _ _ 2).trans (array_eq m c)
  unfold Pipeline.afterTail₀
  show StableHlo.after hostOps1 _ (Proc.devRef .tc main_v7) = _
  after_results
  exact congrArg (fun A : S65536x512.Idx → EReal => shapeCast S4096x16x512 A shapeCasts_S65536x512_S4096x16x512) hA

/-- The result buffer, entry by entry, is the gate of the input by the two row sums. -/
theorem result_eq (c : Dev nD) :
    Pipeline.afterTail₀ cfgs (dats m) 0 (V0 m) [hostOps1] c main_v7
      = gated (m ((c.tc : Thread nD τ).loc main_arg0)) (rowSum (m ((c.tc : Thread nD τ).loc main_arg1)))
          (rowSum (m ((c.tc : Thread nD τ).loc main_arg2))) := by
  rw [tail_eq, flat_input, weight_row]
  funext i
  obtain ⟨s, n, ch, rfl⟩ : ∃ (s : Fin 4096) (n : Fin 16) (ch : Fin 512), i = ix3 s n ch := ⟨i 0, i 1, i 2, eq_ix3 i⟩
  have hp : s.val * 16 + n.val < 65536 := by omega
  rw [shapeCast_nc_abc_apply _ _ s n ch ⟨s.val * 16 + n.val, hp⟩ rfl]
  unfold rowsGated gated
  rw [shapeCast_abc_nc_apply _ _ s n ch ⟨s.val * 16 + n.val, hp⟩ rfl]
  show gateW _ (shapeCast S1x512 (rowSum (m ((c.tc : Thread nD τ).loc main_arg1))) shapeCasts_S1x1x512_S1x512 (ix2 (0 : Fin 1) ch)
    * shapeCast S1x512 (rowSum (m ((c.tc : Thread nD τ).loc main_arg2))) shapeCasts_S1x1x512_S1x512 (ix2 (0 : Fin 1) ch)) = _
  rw [shapeCast_1ab_ab_apply, shapeCast_1ab_ab_apply]
  rfl

/-- The kernel program's run: it terminates with the result buffer at the gate of its arguments, the arguments unchanged. -/
theorem run : θ_run defs (onTc (τ := τ) (main (F := Ideal))) ⟨m, fun _ => 0, ρ⟩ (fun r => ∀ c : Dev nD,
      r.2.mem ((c.tc : Thread nD τ).loc main_v7)
        = gated (m ((c.tc : Thread nD τ).loc main_arg0)) (rowSum (m ((c.tc : Thread nD τ).loc main_arg1)))
            (rowSum (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v7 (Pipeline.mem_restRefs_of main_v7 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.GateValue

end
-- ==== Proof.ReferenceGate.lean ====
/-
  The reference program's result is the channel gate.

  The reference forms `q = x · rq` and `k = x · rk` with the row sums broadcast along the two leading axes,
  then `x · 1 / (1 + e^(-(q · k)))`. Read entry by entry through the generated stage lemmas this is
  `Gate.logistic_form` at the entry and its channel.
-/
import proofs.«151927_j67199058313541_2_alg».proof.Proof.Gen.ReferenceIdeal.Read
import proofs.«151927_j67199058313541_2_alg».proof.Proof.Gate

noncomputable section

namespace Cert.ReferenceIdeal.GateValue

open Cert.ReferenceIdeal Cert.ReferenceIdeal.Gen Cert.ReferenceIdeal.Read Idealize.ShloMosaic Idealize.ShloMosaic.ValueIdx Cert.Gate

/-- The reference's last stage, as a function of the three arguments, is the gate of the input by the two row sums. -/
theorem result_eq_gated (x0 : (⟨S4096x16x512, .f32⟩ : BufTy).Contents (Elt Ideal))
    (x1 x2 : (⟨S1x1x512x512, .f32⟩ : BufTy).Contents (Elt Ideal)) :
    val_main_v13 (F := Ideal) x0 x1 x2 = gated x0 (val_main_v0 (F := Ideal) x1) (val_main_v1 (F := Ideal) x2) := by
  funext i
  have e2 : idx_main_v2 i = chan i := funext fun a => by
    match a with | ⟨0, _⟩ => rfl | ⟨1, _⟩ => rfl | ⟨2, _⟩ => rfl
  have e4 : idx_main_v4 i = chan i := funext fun a => by
    match a with | ⟨0, _⟩ => rfl | ⟨1, _⟩ => rfl | ⟨2, _⟩ => rfl
  rw [val_main_v13_apply, val_main_v12_apply, val_main_v11_apply, val_main_cst_2_apply, val_main_v10_apply,
    val_main_v9_apply, val_main_cst_1_apply, val_main_v8_apply, val_main_v7_apply, val_main_v6_apply,
    val_main_v3_apply, val_main_v5_apply, val_main_v2_apply, val_main_v4_apply, e2, e4]
  simp only [Ideal.mulf_def, Ideal.hostDivf_def, Ideal.addf_def, Ideal.hostUnary_exp_def, Ideal.hostNegf_def,
    Ideal.negf_def, Ideal.ofBits_def, LogisticTanh.one_word]
  exact logistic_form _ _ _

end Cert.ReferenceIdeal.GateValue

end
-- ==== Proof.lean ====
/-
  The kernel gates each entry of `x : [4096, 16, 512]` by its channel:

      out(s,n,c) = x(s,n,c) · ( ½ · tanh( ½ · ( x(s,n,c)² · (rq(c) · rk(c)) ) ) + ½ ),

  where `rq(c)`, `rk(c)` are the sums of row `c` of the two weight matrices. The reference computes
  `x · σ((x · rq) · (x · rk))` with `σ(t) = 1 / (1 + e^(-t))`. On the extended reals the two agree entry by
  entry: the four factors of `(x · rq) · (x · rk)` regroup to `x² · (rq · rk)` (multiplication is commutative
  and associative there), and `σ(t) = ½ · tanh(t/2) + ½` at every extended real, the infinities included
  (Proof/LogisticTanh.lean). The row sums are the same term on both sides and are never opened; the
  finiteness of the inputs is not used.

  The kernel side (Proof/KernelBlocks.lean, Proof/KernelValue.lean): each of the 16 grid points writes rows
  `4096·t …` of the flattened output, the blocks tile it, and the flattening `[4096,16,512] ↔ [65536,512]`
  around the region is read at coordinates. The reference side (Proof/ReferenceGate.lean) is read stage by stage.
  Both are the one function `Gate.gated` (Proof/Gate.lean) of the argument arrays.
-/
import proofs.«151927_j67199058313541_2_alg».proof.Defs
import proofs.«151927_j67199058313541_2_alg».proof.Proof.Gen.Kernel
import proofs.«151927_j67199058313541_2_alg».proof.Proof.Gen.Kernel.Skeleton
import proofs.«151927_j67199058313541_2_alg».proof.Proof.Gen.Kernel.Launch
import proofs.«151927_j67199058313541_2_alg».proof.Proof.Gen.Kernel.Points
import proofs.«151927_j67199058313541_2_alg».proof.Proof.Gen.Kernel.Frame
import proofs.«151927_j67199058313541_2_alg».proof.Proof.Gen.KernelIdeal
import proofs.«151927_j67199058313541_2_alg».proof.Proof.Gen.KernelIdeal.Skeleton
import proofs.«151927_j67199058313541_2_alg».proof.Proof.Gen.KernelIdeal.Launch
import proofs.«151927_j67199058313541_2_alg».proof.Proof.Gen.KernelIdeal.Points
import proofs.«151927_j67199058313541_2_alg».proof.Proof.Gen.KernelIdeal.Frame
import proofs.«151927_j67199058313541_2_alg».proof.Proof.Gen.ReferenceIdeal
import proofs.«151927_j67199058313541_2_alg».proof.Proof.Gen.Pre_finite_inputs
import proofs.«151927_j67199058313541_2_alg».proof.Proof.Gen.ReferenceIdeal.Run
import proofs.«151927_j67199058313541_2_alg».proof.Proof.Gen.ReferenceIdeal.Read
import proofs.«151927_j67199058313541_2_alg».proof.Proof.KernelValue
import proofs.«151927_j67199058313541_2_alg».proof.Proof.ReferenceGate
import Idealize.ShloMosaic.Adequacy
import Idealize.ShloMosaic.Init

noncomputable section

namespace Cert.Proof

open Idealize.ShloMosaic Idealize.SL.Sem Cert.Kernel

/-- The word-level kernel program runs and keeps its arguments. -/
theorem frame_kernel : Cert.frame_Kernel := fun m ρ _ => Cert.Kernel.Gen.frame m ρ

/-- The idealized kernel program runs and keeps its arguments. -/
theorem frame_kernel_ideal : Cert.frame_KernelIdeal := fun m ρ _ => Cert.KernelIdeal.Gen.frame m ρ

/-- The idealized reference runs and keeps its arguments: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the three arguments both idealized programs end with the gate of the input by the
    two row sums in their result buffers. -/
theorem algebraic : Cert.algebraic_KernelIdeal_ReferenceIdeal := by
  intro m ρ m' ρ' _ hagree
  refine ⟨_, Cert.KernelIdeal.GateValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v13_eq _ _ _).trans ?_
  refine (Cert.ReferenceIdeal.GateValue.result_eq_gated _ _ _).trans ?_
  rw [(hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
